-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S8192x1024 : Shape := ⟨2, ![8192, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S4x4096x1024 .f32) (main_arg1 : FVec F S8192x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S4x4096x1024 : Shape := ⟨3, ![4, 4096, 1024]⟩
abbrev S8192x1024 : Shape := ⟨2, ![8192, 1024]⟩
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x4096x1024, .f32⟩
  | .hbm, ⟨1, _⟩ => ⟨S8192x1024, .f32⟩
  | .hbm, ⟨2, _⟩ => ⟨S4x4096x1024, .f32⟩
  | .local _ .vmem, ⟨0, _⟩ => ⟨S4x256x1024, .f32⟩
  | .local _ .vmem, ⟨1, _⟩ => ⟨S4x256x1024, .f32⟩
  | .local _ .vmem, ⟨2, _⟩ => ⟨S256x1024, .f32⟩
  | .local _ .vmem, ⟨3, _⟩ => ⟨S256x1024, .f32⟩
  | .local _ .vmem, ⟨4, _⟩ => ⟨S4x256x1024, .f32⟩
  | .local _ .vmem, ⟨5, _⟩ => ⟨S4x256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4x256x1024_S4x256x1024_0_0_0 : ∀ a, (![0, 0, 0] : Fin 3 → Nat) a + S4x256x1024.size a ≤ S4x256x1024.size a
  h_S4x256x1024 : 0 < S4x256x1024.numel
  inb_S256x1024_S256x1024_0_0 : ∀ a, (![0, 0] : Fin 2 → Nat) a + S256x1024.size a ≤ S256x1024.size a
  h_S256x1024 : 0 < S256x1024.numel
  shapeCasts_S256x1024_S1x256x1024 : S256x1024.ShapeCasts S1x256x1024
  broadcasts_S1x256x1024_S4x256x1024 : S1x256x1024.Broadcasts S4x256x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x1024.size a ≤ S4x4096x1024.size a
  hwx0_0 : ∀ i : grid0.Coords, EltTy.bits .f32 = 32 ∨ (Rect.block (s := S4x4096x1024) S4x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x256x1024.size a ≤ S4x4096x1024.size a
  hwx0_2 : ∀ i : grid0.Coords, EltTy.bits .f32 = 32 ∨ (Rect.block (s := S4x4096x1024) S4x256x1024.size (cc0_transform_2 i) (hinb0_2 i)).WholeWords (EltTy.packing .f32)

variable [Facts₀]

abbrev win0_0 : Pipeline.Window sig grid0 :=
  Pipeline.Window.ofSpec (Memref.whole main_arg0) S4x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S8192x1024 : Shape := ⟨2, ![8192, 1024]⟩
abbrev S4096 : Shape := ⟨1, ![4096]⟩
abbrev S1x4096 : Shape := ⟨2, ![1, 4096]⟩
abbrev S_ : Shape := ⟨0, ![]⟩
abbrev S1x4096x1 : Shape := ⟨3, ![1, 4096, 1]⟩
abbrev S1 : Shape := ⟨1, ![1]⟩
abbrev S1x1x1 : Shape := ⟨3, ![1, 1, 1]⟩
abbrev S1x4096x1024 : Shape := ⟨3, ![1, 4096, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S8192x1024, .f32⟩
  | .hbm, ⟨2, _⟩ => ⟨S4096, .i32⟩
  | .hbm, ⟨3, _⟩ => ⟨S1x4096, .i32⟩
  | .hbm, ⟨4, _⟩ => ⟨S_, .i32⟩
  | .hbm, ⟨5, _⟩ => ⟨S1x4096, .i32⟩
  | .hbm, ⟨6, _⟩ => ⟨S1x4096, .i1⟩
  | .hbm, ⟨7, _⟩ => ⟨S_, .i32⟩
  | .hbm, ⟨8, _⟩ => ⟨S1x4096, .i32⟩
  | .hbm, ⟨9, _⟩ => ⟨S1x4096, .i32⟩
  | .hbm, ⟨10, _⟩ => ⟨S1x4096, .i32⟩
  | .hbm, ⟨11, _⟩ => ⟨S1x4096x1, .i32⟩
  | .hbm, ⟨12, _⟩ => ⟨S1, .i32⟩
  | .hbm, ⟨13, _⟩ => ⟨S_, .i32⟩
  | .hbm, ⟨14, _⟩ => ⟨S1x4096x1, .i32⟩
  | .hbm, ⟨15, _⟩ => ⟨S1x4096x1, .i1⟩
  | .hbm, ⟨16, _⟩ => ⟨S1x1x1, .i32⟩
  | .hbm, ⟨17, _⟩ => ⟨S1x4096x1, .i32⟩
  | .hbm, ⟨18, _⟩ => ⟨S1x4096x1, .i1⟩
  | .hbm, ⟨19, _⟩ => ⟨S1x4096x1, .i1⟩
  | .hbm, ⟨20, _⟩ => ⟨S_, .i1⟩
  | .hbm, ⟨21, _⟩ => ⟨S1x4096, .i1⟩
  | .hbm, ⟨22, _⟩ => ⟨S1x4096x1024, .f32⟩
  | .hbm, ⟨23, _⟩ => ⟨S1x4096x1024, .i1⟩
  | .hbm, ⟨24, _⟩ => ⟨S_, .f32⟩
  | .hbm, ⟨25, _⟩ => ⟨S1x4096x1024, .f32⟩
  | .hbm, ⟨26, _⟩ => ⟨S1x4096x1024, .f32⟩
  | .hbm, ⟨27, _⟩ => ⟨S4x4096x1024, .f32⟩
  | .hbm, ⟨28, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S_S1x4096 : S_.BroadcastsInDim S1x4096 (![] : Fin 0 → Fin S1x4096.rank)
  bcast_S1x4096_S1x4096x1_0_1 : S1x4096.BroadcastsInDim S1x4096x1 (![0, 1] : Fin 2 → Fin S1x4096x1.rank)
  bcast_S_S1x4096x1 : S_.BroadcastsInDim S1x4096x1 (![] : Fin 0 → Fin S1x4096x1.rank)
  bcast_S1_S1x1x1_2 : S1.BroadcastsInDim S1x1x1 (![2] : Fin 1 → Fin S1x1x1.rank)
  bcast_S1x1x1_S1x4096x1_0_1_2 : S1x1x1.BroadcastsInDim S1x4096x1 (![0, 1, 2] : Fin 3 → Fin S1x4096x1.rank)
  reducesTo_S1x4096x1_S1x4096_d2 : S1x4096x1.ReducesTo [2] S1x4096
  h_S_ : 0 < S_.numel
  bcast_S1x4096_S1x4096x1024_0_1 : S1x4096.BroadcastsInDim S1x4096x1024 (![0, 1] : Fin 2 → Fin S1x4096x1024.rank)
  bcast_S_S1x4096x1024 : S_.BroadcastsInDim S1x4096x1024 (![] : Fin 0 → Fin S1x4096x1024.rank)
  bcast_S1x4096x1024_S4x4096x1024_0_1_2 : S1x4096x1024.BroadcastsInDim S4x4096x1024 (![0, 1, 2] : Fin 3 → Fin S4x4096x1024.rank)
  gather_S8192x1024_S1x4096x1_S1x4096x1024_2_0_n_n_0_2_11024_wf : GatherDims.WF S8192x1024 S1x4096x1 S1x4096x1024 [2] [0] [] [0] [] 2 ![1, 1024]

variable [Facts₀]

def gather_S8192x1024_S1x4096x1_S1x4096x1024_2_0_n_n_0_2_11024 : GatherDims S8192x1024 S1x4096x1 S1x4096x1024 where
  offsetDims := [2]
  collapsedSliceDims := [0]
  operandBatchingDims := []
  startIndicesBatchingDims := []
  startIndexMap := [0]
  indexVectorDim := 2
  sliceSizes := ![1, 1024]
  wf := gather_S8192x1024_S1x4096x1_S1x4096x1024_2_0_n_n_0_2_11024_wf

class Facts : Prop extends Facts₀ where

variable [Facts]
-- ==== Proof.Spec.lean ====
/-
  The position-embedding sum as one function of its two arguments, index by index: for activations
  x : [4, 4096, 1024] and a table p : [8192, 1024],

      out[b, s, d] = x[b, s, d] + p[s, d]        (0 ≤ s < 4096, so row s of the table always exists).

  Only the addition of the element type is used, so the function is stated at any float instance.
-/
import Idealize.ShloMosaic.PureOps
import Idealize.ShloMosaic.Lib.ValueIdx

noncomputable section

namespace Cert.PosEmbed

open Idealize.ShloMosaic

variable {F : FTy → Type} [FloatOps F]

/-- The activations' shape [batch, sequence, feature]. -/
abbrev SX : Shape := ⟨3, ![4, 4096, 1024]⟩
/-- The table's shape [position, feature]. -/
abbrev SP : Shape := ⟨2, ![8192, 1024]⟩

/-- The table entry an activation index (b, s, d) meets: row s, column d. -/
abbrev tableIdx (i : SX.Idx) : SP.Idx := fun a => match a with
  | ⟨0, _⟩ => ⟨(i 1).val, by have h : (i 1).val < 4096 := (i 1).isLt; show (i 1).val < 8192; omega⟩
  | ⟨1, _⟩ => ⟨(i 2).val, by have h : (i 2).val < 1024 := (i 2).isLt; show (i 2).val < 1024; omega⟩

/-- out[b, s, d] = x[b, s, d] + p[s, d]. -/
def withPositions (x : SX.Idx → Elt F .f32) (p : SP.Idx → Elt F .f32) : SX.Idx → Elt F .f32 :=
  fun i => FloatOps.addf (x i) (p (tableIdx i))

theorem withPositions_apply (x : SX.Idx → Elt F .f32) (p : SP.Idx → Elt F .f32) (i : SX.Idx) :
    withPositions x p i = FloatOps.addf (x i) (p (tableIdx i)) := rfl

end Cert.PosEmbed

end
-- ==== Proof.KernelValue.lean ====
/-
  The kernel's result array as one function of its arguments. The grid has 16 points; point t stages rows
  256·t … 256·t + 255 of the sequence axis of the activations (all four batch entries, every feature) and the
  same 256 rows of the table, and writes back that block of the result. Inside the block the body adds to
  each activation the table entry of its own row and feature (the table block laid out with a leading unit
  axis and copied over the batch). So what point t writes back is block t of

      out[b, s, d] = x[b, s, d] + p[s, d],

  and since the 16 blocks tile the sequence axis, the whole array ends as that function.
-/
import proofs.«137202_g65670049955842_cont_9to1_m_253_3_alg».proof.Proof.Gen.KernelIdeal.Value
import proofs.«137202_g65670049955842_cont_9to1_m_253_3_alg».proof.Proof.Spec

noncomputable section

namespace Cert.KernelIdeal.Whole

open Cert.KernelIdeal Cert.KernelIdeal.Gen Idealize.ShloMosaic Idealize.ShloMosaic.TcCoe Idealize.SL.Sem
open Idealize.ShloMosaic.Pipeline (Dat)
open Cert.PosEmbed (withPositions tableIdx)

variable {F : FTy → Type} [FloatOps F]
variable (m : (ℓ : Loc nD τ sig) → Buf (Elt F) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- Where the index maps send grid point t: block (0, t, 0) of the activations and of the result, block (t, 0) of
    the table. -/
theorem idx_facts : ∀ t : Fin cfg0.N,
    win0_0.index t (0 : Fin 3) = 0 ∧ win0_0.index t (1 : Fin 3) = t.val ∧ win0_0.index t (2 : Fin 3) = 0
    ∧ win0_1.index t (0 : Fin 2) = t.val ∧ win0_1.index t (1 : Fin 2) = 0
    ∧ win0_2.index t (0 : Fin 3) = 0 ∧ win0_2.index t (1 : Fin 3) = t.val ∧ win0_2.index t (2 : Fin 3) = 0 :=
  (by decide +kernel : ∀ t : Fin grid0.N, _)

/-- What point t writes back is block t of x[b, s, d] + p[s, d] of the arrays as the region finds them. -/
theorem flushed_eq (c : Dev nD) (t : Fin cfg0.N) :
    (dats m 0 c).flushed 2 t
      = ((cfg0.win 2).blk t).view.read (Elt F) (withPositions (V m c main_arg0) (V m c main_arg1)) := by
  show (cfg0.win 2).cut (grid0.coords t) ((dats m 0 c).after 2 t) = _
  rw [after0_2]
  unfold out0_2
  simp only [View.ld_unit_zero (S := S4x256x1024) hz3, View.ld_unit_zero (S := S256x1024) hz2]
  obtain ⟨e0, e1, e2, e3, e4, e5, e6, e7⟩ := idx_facts t
  funext j
  show View.canon [⟨r0_0, k0_pay1 (iblk m c 0 t) (iblk m c 1 t)⟩] j
    = withPositions (V m c main_arg0) (V m c main_arg1) (((cfg0.win 2).blk t).view.emb j)
  refine (Value.canon2_eq (iblk m c 0 t) (iblk m c 1 t) j).trans ?_
  show FloatOps.addf (V m c main_arg0 (((cfg0.win 0).blk t).view.emb (Value.ix2_0 j)))
      (V m c main_arg1 (((cfg0.win 1).blk t).view.emb (Value.ix2_1 j)))
    = FloatOps.addf (V m c main_arg0 (((cfg0.win 2).blk t).view.emb j))
      (V m c main_arg1 (tableIdx (((cfg0.win 2).blk t).view.emb j)))
  have h0 : ((cfg0.win 0).blk t).view.emb (Value.ix2_0 j) = ((cfg0.win 2).blk t).view.emb j := by
    funext a; apply Fin.ext
    match a with
    | ⟨0, _⟩ => show win0_0.index t (0 : Fin 3) * 4 + 1 * (j 0).val = win0_2.index t (0 : Fin 3) * 4 + 1 * (j 0).val; omega
    | ⟨1, _⟩ => show win0_0.index t (1 : Fin 3) * 256 + 1 * (j 1).val = win0_2.index t (1 : Fin 3) * 256 + 1 * (j 1).val; omega
    | ⟨2, _⟩ => show win0_0.index t (2 : Fin 3) * 1024 + 1 * (j 2).val = win0_2.index t (2 : Fin 3) * 1024 + 1 * (j 2).val; omega
  have h1 : ((cfg0.win 1).blk t).view.emb (Value.ix2_1 j) = tableIdx (((cfg0.win 2).blk t).view.emb j) := by
    funext a; apply Fin.ext
    match a with
    | ⟨0, _⟩ => show win0_1.index t (0 : Fin 2) * 256 + 1 * (j 1).val = win0_2.index t (1 : Fin 3) * 256 + 1 * (j 1).val; omega
    | ⟨1, _⟩ => show win0_1.index t (1 : Fin 2) * 1024 + 1 * (j 2).val = win0_2.index t (2 : Fin 3) * 1024 + 1 * (j 2).val; omega
  rw [h0, h1]

/-- An index of the array is in point t's block iff each coordinate is in the block's range on its axis. -/
theorem mem_blk (t : Fin cfg0.N) (i : S4x4096x1024.Idx) :
    i ∈ ((cfg0.win 2).blk t).view.set ↔ ∀ a : Fin 3, win0_2.index t a * S4x256x1024.size a ≤ (i a).val
      ∧ (i a).val < win0_2.index t a * S4x256x1024.size a + S4x256x1024.size a := by
  show i ∈ ((View.whole main_v0).slice (win0_2.rect t)).set ↔ _
  rw [View.set_slice_whole, Rect.mem_set_unit]
  exact Iff.rfl

/-- Every index of the result lies in the block of the point its sequence position selects: point s / 256. -/
theorem cover (i : S4x4096x1024.Idx) :
    ∃ t : Fin cfg0.N, (cfg0.win 2).flush t = true ∧ i ∈ ((cfg0.win 2).blk t).view.set := by
  have hi0 : (i 0).val < 4 := (i 0).isLt
  have hi1 : (i 1).val < 4096 := (i 1).isLt
  have hi2 : (i 2).val < 1024 := (i 2).isLt
  have hN : grid0.N = 16 := N_0
  have ht : (i 1).val / 256 < cfg0.N := by show (i 1).val / 256 < grid0.N; rw [hN]; omega
  obtain ⟨e0, e1, e2, e3, e4, e5, e6, e7⟩ := idx_facts ⟨(i 1).val / 256, ht⟩
  refine ⟨⟨(i 1).val / 256, ht⟩, flush0_2 _, ?_⟩
  rw [mem_blk]
  intro a
  match a with
  | ⟨0, _⟩ =>
    show win0_2.index ⟨(i 1).val / 256, ht⟩ (0 : Fin 3) * 4 ≤ (i 0).val
      ∧ (i 0).val < win0_2.index ⟨(i 1).val / 256, ht⟩ (0 : Fin 3) * 4 + 4
    omega
  | ⟨1, _⟩ =>
    show win0_2.index ⟨(i 1).val / 256, ht⟩ (1 : Fin 3) * 256 ≤ (i 1).val
      ∧ (i 1).val < win0_2.index ⟨(i 1).val / 256, ht⟩ (1 : Fin 3) * 256 + 256
    have e6' : win0_2.index ⟨(i 1).val / 256, ht⟩ (1 : Fin 3) = (i 1).val / 256 := e6
    omega
  | ⟨2, _⟩ =>
    show win0_2.index ⟨(i 1).val / 256, ht⟩ (2 : Fin 3) * 1024 ≤ (i 2).val
      ∧ (i 2).val < win0_2.index ⟨(i 1).val / 256, ht⟩ (2 : Fin 3) * 1024 + 1024
    omega

/-- The result array after the run is x[b, s, d] + p[s, d] of the arguments as launched. -/
theorem final (c : Dev nD) :
    (dats m 0 c).arrAt 2 cfg0.N
      = withPositions (m ((c : Thread nD τ).loc main_arg0)) (m ((c : Thread nD τ).loc main_arg1)) :=
  (dats m 0 c).arrAt_eq_of_cover 2 (withPositions (V m c main_arg0) (V m c main_arg1))
    (fun t _ => flushed_eq m c t) cover

/-- The kernel's run: every weakly fair execution ends with the result array at x[b, s, d] + p[s, d] and the
    arguments unchanged. -/
theorem run : θ_run defs (onTc (τ := τ) (main (F := F))) ⟨m, fun _ => 0, ρ⟩ fun r => ∀ c : Dev nD,
      r.2.mem ((c : Thread nD τ).loc main_v0)
        = withPositions (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.RefRun.lean ====
/-
  The reference program's run, read back. The reference computes x + take(p, arange(4096)[None, :], axis 0)
  through two functions its module outlines (the take, and inside it a where that wraps negative positions), so
  its straight line is written here with both bodies placed at their call sites: twenty-seven host operations.
  Every weakly fair execution ends with the result at the operations' composed value `refOut` of the two
  arguments, and the arguments unchanged. What `refOut` is at an index is the next module's business.
-/
import proofs.«137202_g65670049955842_cont_9to1_m_253_3_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The stages as pure values -/

/-- The positions 0 … 4095 as one row [1, 4096]. -/
def positions : IVec S1x4096 32 := broadcastInDim S1x4096 ![1] bcast_S4096_S1x4096_1 (iotaInDim S4096 32 0)

/-- Each position with 8192 added where it is negative (how a take reads an index counted from the end). -/
def wrapped : IVec S1x4096 32 :=
  select (cmpi .slt positions (broadcastInDim S1x4096 ![] bcast_S_S1x4096 (constantI S_ 32 0#32)))
    (addi positions (broadcastInDim S1x4096 ![] bcast_S_S1x4096 (constantI S_ 32 8192#32))) positions

/-- The wrapped positions as start indices [1, 4096, 1]. -/
def starts : IVec S1x4096x1 32 := broadcastInDim S1x4096x1 ![0, 1] bcast_S1x4096_S1x4096x1_0_1 wrapped

/-- Per position: is its start index inside the table, 0 ≤ start ≤ 8191 (an and over the one index component). -/
def inTable : IVec S1x4096 1 :=
  Host.reduce IntOp.andi
    (andi (cmpi .sge starts (broadcastInDim S1x4096x1 ![] bcast_S_S1x4096x1 (constantI S_ 32 0#32)))
      (cmpi .sle starts (broadcastInDim S1x4096x1 ![0, 1, 2] bcast_S1x1x1_S1x4096x1_0_1_2
        (broadcastInDim S1x1x1 ![2] bcast_S1_S1x1x1_2 (constantI S1 32 8191#32)))))
    (constantI S_ 1 1#1) reducesTo_S1x4096x1_S1x4096_d2 h_S_

/-- The rows of the table at the start indices, [1, 4096, 1024]; a row whose index is outside the table is
    replaced by the fill word. -/
def taken (p : (⟨S8192x1024, .f32⟩ : BufTy).Contents (Elt F)) : (⟨S1x4096x1024, .f32⟩ : BufTy).Contents (Elt F) :=
  select (broadcastInDim S1x4096x1024 ![0, 1] bcast_S1x4096_S1x4096x1024_0_1 inTable)
    (Host.gather gather_S8192x1024_S1x4096x1_S1x4096x1024_2_0_n_n_0_2_11024 p starts)
    (broadcastInDim S1x4096x1024 ![] bcast_S_S1x4096x1024 (constant S_ .f32 0x7FC00000#32))

/-- The reference's result: the activations plus the taken rows copied over the batch. -/
def refOut (x : (⟨S4x4096x1024, .f32⟩ : BufTy).Contents (Elt F)) (p : (⟨S8192x1024, .f32⟩ : BufTy).Contents (Elt F)) :
    (⟨S4x4096x1024, .f32⟩ : BufTy).Contents (Elt F) :=
  addf x (broadcastInDim S4x4096x1024 ![0, 1, 2] bcast_S1x4096x1024_S4x4096x1024_0_1_2 (taken p))

/-! ## The straight line -/

/-- @main's operations in order, the take's twenty-three and, inside it, the where's one at their call sites. -/
abbrev ops : List (HloOp τ sig (Elt F)) :=
  [ nullary main_v0 (iotaInDim S4096 32 0),
    unary main_v0 main_v1 (broadcastInDim S1x4096 ![1] bcast_S4096_S1x4096_1 : (⟨S4096, .i32⟩ : BufTy).Contents (Elt F) → (⟨S1x4096, .i32⟩ : BufTy).Contents (Elt F)),
    TRef.nullary main_call0.c (constantI S_ 32 0#32),
    TRef.unary main_call0.c main_call0.v0 (broadcastInDim S1x4096 ![] bcast_S_S1x4096),
    TRef.binary (.of main_v1) main_call0.v0 main_call0.v1 (cmpi .slt),
    TRef.nullary main_call0.c_0 (constantI S_ 32 8192#32),
    TRef.unary main_call0.c_0 main_call0.v2 (broadcastInDim S1x4096 ![] bcast_S_S1x4096),
    TRef.binary (.of main_v1) main_call0.v2 main_call0.v3 addi,
    TRef.ternary main_call0.v1 main_call0.v3 (.of main_v1) main_call0.call0.v0 select,
    TRef.unary main_call0.call0.v0 main_call0.v5 (broadcastInDim S1x4096x1 ![0, 1] bcast_S1x4096_S1x4096x1_0_1),
    TRef.nullary main_call0.c_1 (constantI S1 32 8191#32),
    TRef.nullary main_call0.c_2 (constantI S_ 32 0#32),
    TRef.unary main_call0.c_2 main_call0.v6 (broadcastInDim S1x4096x1 ![] bcast_S_S1x4096x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S1x4096x1 ![0, 1, 2] bcast_S1x1x1_S1x4096x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1x4096x1_S1x4096_d2 h_S_),
    TRef.binary (.of main_arg1) main_call0.v5 main_call0.v13 (fun x i => Host.gather gather_S8192x1024_S1x4096x1_S1x4096x1024_2_0_n_n_0_2_11024 x i),
    TRef.unary main_call0.v12 main_call0.v14 (broadcastInDim S1x4096x1024 ![0, 1] bcast_S1x4096_S1x4096x1024_0_1),
    TRef.nullary main_call0.cst (constant S_ .f32 0x7FC00000#32),
    TRef.unary main_call0.cst main_call0.v15 (broadcastInDim S1x4096x1024 ![] bcast_S_S1x4096x1024),
    TRef.ternary main_call0.v14 main_call0.v13 main_call0.v15 main_call0.v16 select,
    unary main_v2 main_v3 (broadcastInDim S4x4096x1024 ![0, 1, 2] bcast_S1x4096x1024_S4x4096x1024_0_1_2 : (⟨S1x4096x1024, .f32⟩ : BufTy).Contents (Elt F) → (⟨S4x4096x1024, .f32⟩ : BufTy).Contents (Elt F)),
    binary main_arg0 main_v3 main_v4 (addf : (⟨S4x4096x1024, .f32⟩ : BufTy).Contents (Elt F) → (⟨S4x4096x1024, .f32⟩ : BufTy).Contents (Elt F) → (⟨S4x4096x1024, .f32⟩ : BufTy).Contents (Elt F)) ]

set_option maxRecDepth 1024 in
/-- @main is that straight line: the two functions' bodies unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., unary_bufs_sub .., binary_bufs_sub ..⟩

/-- Every buffer after the run is the fold of the operations over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.reduce Host.gather in
/-- The fold at the result buffer is `refOut` of the argument buffers' contents. -/
theorem out_eq (V : Valuation τ sig (Elt F)) :
    after ops V (main_v4 : DevRef τ sig) = refOut (V (main_arg0 : DevRef τ sig)) (V (main_arg1 : DevRef τ sig)) := by
  after_results
  simp only [TRef.toBuf, TRef.ofBuf, cast_eq]
  rfl

/-- No operation writes an argument buffer. -/
theorem arg0_eq (V : Valuation τ sig (Elt F)) :
    after ops V (main_arg0 : DevRef τ sig) = V (main_arg0 : DevRef τ sig) := by
  after_results

theorem arg1_eq (V : Valuation τ sig (Elt F)) :
    after ops V (main_arg1 : DevRef τ sig) = V (main_arg1 : DevRef τ sig) := by
  after_results

end Cert.ReferenceIdeal.HandRun

end
-- ==== Proof.LibTakeRows.lean ====
/-
  A take of whole rows of a matrix, read at an index.

  What `jnp.take(x, idx, axis=0)` of a matrix x : [N, C] at an integer array idx : [R, E] lowers to: a
  `stablehlo.gather` with offset_dims [2], collapsed_slice_dims [0], start_index_map [0], index_vector_dim 2 and
  slice sizes [1, C], over the indices laid out as [R, E, 1]. Result element (r, e, c) is x at row idx[r, e, 0] —
  read as a signed integer and clamped into [0, N − 1], as the gather clamps every start index — and column c.
  Sizes are generic; only the ranks are fixed.
-/
import Idealize.ShloMosaic.Lib.ValueIdx

noncomputable section

namespace Cert.TakeRows

open Idealize.ShloMosaic Idealize.ShloMosaic.ValueIdx

variable {α : Type}

/-- Those dimension numbers for an operand [N, C], start indices [R, E, 1] and a result [R, E, C]. -/
abbrev rowDims (N C R E : Nat)
    (wf : GatherDims.WF ⟨2, ![N, C]⟩ ⟨3, ![R, E, 1]⟩ ⟨3, ![R, E, C]⟩ [2] [0] [] [0] [] 2 ![1, C]) :
    GatherDims ⟨2, ![N, C]⟩ ⟨3, ![R, E, 1]⟩ ⟨3, ![R, E, C]⟩ where
  offsetDims := [2]
  collapsedSliceDims := [0]
  operandBatchingDims := []
  startIndicesBatchingDims := []
  startIndexMap := [0]
  indexVectorDim := 2
  sliceSizes := ![1, C]
  wf := wf

/-- The start-indices index [r, e, 0] that result index (r, e, c) reads its row number from. -/
abbrev startAt {R E C : Nat} (y : (⟨3, ![R, E, C]⟩ : Shape).Idx) : (⟨3, ![R, E, 1]⟩ : Shape).Idx :=
  fun a => match a with
    | ⟨0, _⟩ => ⟨(y 0).val, (y 0).isLt⟩
    | ⟨1, _⟩ => ⟨(y 1).val, (y 1).isLt⟩
    | ⟨2, _⟩ => ⟨0, Nat.one_pos⟩

/-- The row a start index names: the word read signed, clamped into [0, N − 1]. -/
def rowOf (N : Nat) {w : Nat} (b : BitVec w) : Nat := min b.toInt.toNat (N - 1)

theorem rowOf_lt {N : Nat} (hN : 0 < N) {w : Nat} (b : BitVec w) : rowOf N b < N := by
  unfold rowOf; omega

/-- THE TAKE READ AT (r, e, c): the operand at the row idx[r, e, 0] names, column c. -/
theorem gather_rows_apply {N C R E w : Nat} (hN : 0 < N)
    (wf : GatherDims.WF ⟨2, ![N, C]⟩ ⟨3, ![R, E, 1]⟩ ⟨3, ![R, E, C]⟩ [2] [0] [] [0] [] 2 ![1, C])
    (x : (⟨2, ![N, C]⟩ : Shape).Idx → α) (idx : IVec ⟨3, ![R, E, 1]⟩ w) (y : (⟨3, ![R, E, C]⟩ : Shape).Idx) :
    Host.gather (rowDims N C R E wf) x idx y
      = x (ix2 ⟨rowOf N (idx (startAt y)), rowOf_lt hN _⟩ ⟨(y 2).val, (y 2).isLt⟩) := by
  unfold Host.gather
  congr 1
  funext a
  refine Fin.ext ?_
  show (rowDims N C R E wf).start y idx a + (rowDims N C R E wf).batchCoord y a + (rowDims N C R E wf).offCoord y a = _
  rw [GatherDims.batchCoord_eq_zero _ _ _ List.not_mem_nil, Nat.add_zero]
  -- axis 0 is collapsed and named by the start index map: the clamped start index alone
  have h0 : (rowDims N C R E wf).start y idx (0 : Fin 2) + (rowDims N C R E wf).offCoord y (0 : Fin 2)
      = rowOf N (idx (startAt y)) := by
    rw [GatherDims.offCoord_eq_zero _ _ _ (fun h => ((GatherDims.mem_sKept _ _).mp h).1 (List.mem_singleton.mpr rfl)),
      Nat.add_zero]
    unfold GatherDims.start
    rw [dif_pos (show (0 : Fin 2) ∈ (rowDims N C R E wf).startIndexMap from List.mem_singleton.mpr rfl)]
    have hsi : (rowDims N C R E wf).siIdx y ⟨List.idxOf (0 : Fin 2) (rowDims N C R E wf).startIndexMap,
        List.idxOf_lt_length_iff.2 (List.mem_singleton.mpr rfl)⟩ = startAt y := by
      funext b; refine Fin.ext ?_
      match b with
      | ⟨0, _⟩ => rfl
      | ⟨1, _⟩ => rfl
      | ⟨2, _⟩ => rfl
    rw [hsi]
    rfl
  -- axis 1 is the one kept axis, read by the result's offset axis 2: the column alone
  have h1 : (rowDims N C R E wf).start y idx (1 : Fin 2) + (rowDims N C R E wf).offCoord y (1 : Fin 2) = (y 2).val := by
    have hne : (1 : Fin 2) ∉ ([0] : List (Fin 2)) := fun h => absurd (List.mem_singleton.mp h) (by decide)
    have hstart : (rowDims N C R E wf).start y idx (1 : Fin 2) = 0 := by
      unfold GatherDims.start
      rw [dif_neg hne]
    have hk : (1 : Fin 2) ∈ (rowDims N C R E wf).sKept :=
      (GatherDims.mem_sKept _ _).mpr ⟨hne, List.not_mem_nil⟩
    rw [hstart, Nat.zero_add]
    unfold GatherDims.offCoord
    rw [dif_pos hk]
    rfl
  match a with
  | ⟨0, _⟩ => exact h0
  | ⟨1, _⟩ => exact h1

end Cert.TakeRows

end
-- ==== Proof.RefRead.lean ====
/-
  The reference's result, read at an index. The positions are 0 … 4095, all inside the table's 8192 rows:
  none is negative, so the wrap leaves each as it is; each passes the range test 0 ≤ start ≤ 8191, so the fill
  word is never selected; and the take's clamp into [0, 8191] leaves each where it is. Hence the taken array at
  (0, s, d) is the table at (s, d), and the reference's result at (b, s, d) is x[b, s, d] + p[s, d].
  Nothing here depends on the float instance: only integer words are computed.
-/
import proofs.«137202_g65670049955842_cont_9to1_m_253_3_alg».proof.Proof.RefRun
import proofs.«137202_g65670049955842_cont_9to1_m_253_3_alg».proof.Proof.Spec
import proofs.«137202_g65670049955842_cont_9to1_m_253_3_alg».proof.Proof.LibTakeRows
import Idealize.ShloMosaic.Lib.Pipeline.Value
import Idealize.ShloMosaic.Lib.IdealHost
import Idealize.ShloMosaic.Lib.Affine
import Idealize.ShloMosaic.Lib.WordArith

noncomputable section

namespace Cert.ReferenceIdeal.HandRead

open Cert.ReferenceIdeal Cert.ReferenceIdeal.Gen Cert.ReferenceIdeal.HandRun Idealize.ShloMosaic Idealize.ShloMosaic.ValueIdx
open Idealize.ShloMosaic.TcCoe Idealize.SL.Sem Idealize.ShloMosaic.StableHlo
open Cert.PosEmbed (withPositions tableIdx)
open Cert.TakeRows (rowDims startAt rowOf gather_rows_apply)

variable {F : FTy → Type} [FloatOps F]

/-! ## The words of a position n < 4096 -/

theorem toInt_pos (n : Nat) (h : n < 4096) : (BitVec.ofNat 32 n).toInt = n :=
  WordArith.toInt_ofNat_small n (by omega)

/-- A position is not negative. -/
theorem pos_not_neg (n : Nat) (h : n < 4096) : IntOp.cmpi .slt (BitVec.ofNat 32 n) 0#32 = 0#1 := by
  refine eq_zero_of_ne_one fun hh => ?_
  have := IntOp.cmpi_slt.mp hh
  rw [toInt_pos n h, show (0#32 : BitVec 32).toInt = 0 from WordArith.toInt_ofNat_small 0 (by omega)] at this
  omega

/-- A position is at least 0 … -/
theorem pos_ge_zero (n : Nat) (h : n < 4096) : IntOp.cmpi .sge (BitVec.ofNat 32 n) 0#32 = 1#1 := by
  refine IntOp.cmpi_sge.mpr ?_
  rw [toInt_pos n h, show (0#32 : BitVec 32).toInt = 0 from WordArith.toInt_ofNat_small 0 (by omega)]
  omega

/-- … and at most the table's last row. -/
theorem pos_le_last (n : Nat) (h : n < 4096) : IntOp.cmpi .sle (BitVec.ofNat 32 n) 8191#32 = 1#1 := by
  refine IntOp.cmpi_sle.mpr ?_
  rw [toInt_pos n h, show (8191#32 : BitVec 32).toInt = 8191 from WordArith.toInt_ofNat_small 8191 (by omega)]
  omega

/-- The row of the table a position names is the position itself. -/
theorem pos_row (n : Nat) (h : n < 4096) : rowOf 8192 (BitVec.ofNat 32 n) = n := by
  unfold rowOf
  rw [toInt_pos n h]
  omega

/-! ## The integer stages at an index -/

theorem positions_apply (a : Fin 1) (e : Fin 4096) : positions (ix2 a e) = BitVec.ofNat 32 e.val :=
  (broadcastInDim_apply ![1] bcast_S4096_S1x4096_1 (iotaInDim S4096 32 0) (ix2 a e) (ix1 e)
    (fun b => match b with | ⟨0, _⟩ => rfl)).trans rfl

theorem wrapped_apply (a : Fin 1) (e : Fin 4096) : wrapped (ix2 a e) = BitVec.ofNat 32 e.val := by
  show Scalar.select (IntOp.cmpi .slt (positions (ix2 a e)) 0#32)
    (IntOp.addi (positions (ix2 a e)) 8192#32) (positions (ix2 a e)) = _
  rw [positions_apply, pos_not_neg e.val e.isLt, select_zero]

theorem starts_apply (a : Fin 1) (e : Fin 4096) (z : Fin 1) : starts (ix3 a e z) = BitVec.ofNat 32 e.val :=
  (broadcastInDim_apply ![0, 1] bcast_S1x4096_S1x4096x1_0_1 wrapped (ix3 a e z) (ix2 (0 : Fin 1) e)
    (fun b => match b with | ⟨0, _⟩ => rfl | ⟨1, _⟩ => rfl)).trans (wrapped_apply 0 e)

/-- A fold of and from 1 over words that are all 1 is 1. -/
theorem foldl_andi_ones {ι : Type} (f : ι → BitVec 1) (l : List ι) (hf : ∀ n ∈ l, f n = 1#1) :
    l.foldl (fun r n => IntOp.andi r (f n)) 1#1 = 1#1 := by
  induction l with
  | nil => rfl
  | cons n l ih =>
    rw [List.foldl_cons, hf n (List.mem_cons_self ..)]
    exact ih fun k hk => hf k (List.mem_cons_of_mem _ hk)

/-- Every position's start index is inside the table. -/
theorem inTable_apply (q : S1x4096.Idx) : inTable q = 1#1 := by
  unfold inTable Host.reduce
  refine foldl_andi_ones _ _ fun n _ => ?_
  obtain ⟨a, e, z, hi⟩ : ∃ (a : Fin 1) (e : Fin 4096) (z : Fin 1), S1x4096x1.rowMajor.symm n = ix3 a e z :=
    ⟨_, _, _, eq_ix3 _⟩
  rw [hi]
  show IntOp.andi (IntOp.cmpi .sge (starts (ix3 a e z)) 0#32) (IntOp.cmpi .sle (starts (ix3 a e z)) 8191#32) = 1#1
  rw [starts_apply, pos_ge_zero e.val e.isLt, pos_le_last e.val e.isLt]
  rfl

/-! ## The taken rows and the result at an index -/

theorem startAt_ix3 (a : Fin 1) (e : Fin 4096) (d : Fin 1024) :
    startAt (ix3 a e d) = ix3 a e (0 : Fin 1) := by
  funext b; match b with | ⟨0, _⟩ => rfl | ⟨1, _⟩ => rfl | ⟨2, _⟩ => rfl

/-- The taken array at (0, s, d) is the table at (s, d). -/
theorem taken_apply (p : (⟨S8192x1024, .f32⟩ : BufTy).Contents (Elt F)) (a : Fin 1) (e : Fin 4096) (d : Fin 1024) :
    taken p (ix3 a e d) = p (ix2 ⟨e.val, by have := e.isLt; omega⟩ d) := by
  have hm : (broadcastInDim S1x4096x1024 ![0, 1] bcast_S1x4096_S1x4096x1024_0_1 inTable) (ix3 a e d) = 1#1 :=
    inTable_apply _
  have hg : gather_S8192x1024_S1x4096x1_S1x4096x1024_2_0_n_n_0_2_11024
      = rowDims 8192 1024 1 4096 gather_S8192x1024_S1x4096x1_S1x4096x1024_2_0_n_n_0_2_11024_wf := rfl
  show Scalar.select ((broadcastInDim S1x4096x1024 ![0, 1] bcast_S1x4096_S1x4096x1024_0_1 inTable) (ix3 a e d))
    (Host.gather gather_S8192x1024_S1x4096x1_S1x4096x1024_2_0_n_n_0_2_11024 p starts (ix3 a e d))
    ((broadcastInDim S1x4096x1024 ![] bcast_S_S1x4096x1024 (constant S_ .f32 0x7FC00000#32)) (ix3 a e d)) = _
  rw [hm, select_one, hg]
  refine (gather_rows_apply (by omega) _ p starts (ix3 a e d)).trans ?_
  refine congrArg p (funext fun b => Fin.ext ?_)
  match b with
  | ⟨0, _⟩ =>
    show rowOf 8192 (starts (startAt (ix3 a e d))) = e.val
    rw [startAt_ix3, starts_apply, pos_row e.val e.isLt]
  | ⟨1, _⟩ => rfl

theorem tableIdx_ix3 (b : Fin 4) (s : Fin 4096) (d : Fin 1024) :
    tableIdx (ix3 b s d) = ix2 ⟨s.val, by have := s.isLt; omega⟩ d := by
  funext a; match a with | ⟨0, _⟩ => rfl | ⟨1, _⟩ => rfl

/-- The reference's result is x[b, s, d] + p[s, d]. -/
theorem refOut_eq (x : (⟨S4x4096x1024, .f32⟩ : BufTy).Contents (Elt F)) (p : (⟨S8192x1024, .f32⟩ : BufTy).Contents (Elt F)) :
    refOut x p = withPositions x p := by
  funext i
  obtain ⟨b, s, d, rfl⟩ : ∃ (b : Fin 4) (s : Fin 4096) (d : Fin 1024), i = ix3 b s d := ⟨i 0, i 1, i 2, eq_ix3 i⟩
  show FloatOps.addf (x (ix3 b s d))
      ((broadcastInDim S4x4096x1024 ![0, 1, 2] bcast_S1x4096x1024_S4x4096x1024_0_1_2 (taken p)) (ix3 b s d))
    = FloatOps.addf (x (ix3 b s d)) (p (tableIdx (ix3 b s d)))
  rw [broadcastInDim_apply ![0, 1, 2] bcast_S1x4096x1024_S4x4096x1024_0_1_2 (taken p) (ix3 b s d) (ix3 (0 : Fin 1) s d)
    (fun a => match a with | ⟨0, _⟩ => rfl | ⟨1, _⟩ => rfl | ⟨2, _⟩ => rfl), taken_apply, tableIdx_ix3]

/-- The reference's run: every weakly fair execution ends with the result at x[b, s, d] + p[s, d] and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4)
        = withPositions (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c main_v4).trans ((out_eq _).trans (refOut_eq _ _)),
        (h c main_arg0).trans (arg0_eq _),
        (h c main_arg1).trans (arg1_eq _)⟩)
    (run_fold m ρ)

end Cert.ReferenceIdeal.HandRead

end
-- ==== Proof.lean ====
/-
  The kernel adds a learned position embedding to a batch of activations: for x : [4, 4096, 1024] and a table
  p : [8192, 1024] it computes out[b, s, d] = x[b, s, d] + p[s, d], sixteen sequence blocks of 256 rows, the
  whole batch per block. The reference computes x + take(p, [0, 1, …, 4095]) along the table's rows.

  Both are one function of the arguments, index by index (Proof/Spec.lean):
    * the kernel's result array is assembled from what its sixteen grid points write back, each the block of
      that function at the point's rows (Proof/KernelValue.lean, over the generated blockwise value leg);
    * the reference's straight line (Proof/RefRun.lean) takes row s of the table for position s — no position
      is negative, each is inside the table, so neither the wrap, the fill value nor the clamp changes anything
      (Proof/RefRead.lean, with the take of rows read at an index in Proof/LibTakeRows.lean).
  The two sides are the same sum x + p term for term, so no property of the inputs is used: the equality holds
  on all extended reals, infinities included. The three frames are the programs' runs with the result dropped;
  the idealization rewrote nothing, so there is nothing to preserve.
-/
import proofs.«137202_g65670049955842_cont_9to1_m_253_3_alg».proof.Defs
import proofs.«137202_g65670049955842_cont_9to1_m_253_3_alg».proof.Proof.Gen.Kernel
import proofs.«137202_g65670049955842_cont_9to1_m_253_3_alg».proof.Proof.Gen.Kernel.Frame
import proofs.«137202_g65670049955842_cont_9to1_m_253_3_alg».proof.Proof.Gen.KernelIdeal
import proofs.«137202_g65670049955842_cont_9to1_m_253_3_alg».proof.Proof.Gen.KernelIdeal.Frame
import proofs.«137202_g65670049955842_cont_9to1_m_253_3_alg».proof.Proof.Gen.ReferenceIdeal
import proofs.«137202_g65670049955842_cont_9to1_m_253_3_alg».proof.Proof.Gen.Pre_finite_inputs
import proofs.«137202_g65670049955842_cont_9to1_m_253_3_alg».proof.Proof.KernelValue
import proofs.«137202_g65670049955842_cont_9to1_m_253_3_alg».proof.Proof.RefRead

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2)
    (Cert.ReferenceIdeal.HandRead.run (F := Ideal) m ρ)

/-- The idealization rewrote no operation. -/
theorem preserves : Cert.preserves_Kernel_KernelIdeal := trivial

/-- Both programs end with x[b, s, d] + p[s, d] of arguments that agree. -/
theorem algebraic : Cert.algebraic_KernelIdeal_ReferenceIdeal := by
  intro m ρ m' ρ' _ hagree
  refine ⟨_, Cert.KernelIdeal.Whole.run (F := Ideal) m ρ, ?_⟩
  refine (θ_run Cert.ReferenceIdeal.defs _ _).mono (fun _ h c => ⟨(h c).1.trans ?_, (h c).2⟩)
    (Cert.ReferenceIdeal.HandRead.run (F := Ideal) m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
